-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1000 : Shape := ⟨2, ![1024, 1000]⟩
abbrev S1000x128 : Shape := ⟨2, ![1000, 128]⟩
abbrev S_ : Shape := ⟨0, ![]⟩

class Facts : Prop where
  bcast_S_S1024x1000 : S_.BroadcastsInDim S1024x1000 (![] : Fin 0 → Fin S1024x1000.rank)
  reducesTo_S1024x1000_S_d0_1 : S1024x1000.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S1024x1000 .f32) (main_arg1 : FVec F S1000x128 .f32) : IVec S_ 1 :=
  let main_v0 : FVec F S1024x1000 .f32 := Host.absf main_arg0
  let main_cst : FVec F S_ .f32 := constant S_ .f32 0x7F800000#32
  let main_v1 : FVec F S1024x1000 .f32 := broadcastInDim S1024x1000 ![] bcast_S_S1024x1000 main_cst
  let main_v2 : IVec S1024x1000 1 := cmpf .olt main_v0 main_v1
  let main_c : IVec S_ 1 := constantI S_ 1 1#1
  let main_v3 : IVec S_ 1 := (fun x v => Host.reduce IntOp.andi x v reducesTo_S1024x1000_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S1024x1000 : Shape := ⟨2, ![1024, 1000]⟩
abbrev S1000x128 : Shape := ⟨2, ![1000, 128]⟩
abbrev S1024x128 : Shape := ⟨2, ![1024, 128]⟩
abbrev S512x1000 : Shape := ⟨2, ![512, 1000]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S1024x1000, .f32⟩
  | .hbm, ⟨1, _⟩ => ⟨S1000x128, .f32⟩
  | .hbm, ⟨2, _⟩ => ⟨S1024x128, .f32⟩
  | .local _ .vmem, ⟨0, _⟩ => ⟨S512x1000, .f32⟩
  | .local _ .vmem, ⟨1, _⟩ => ⟨S512x1000, .f32⟩
  | .local _ .vmem, ⟨2, _⟩ => ⟨S1000x128, .f32⟩
  | .local _ .vmem, ⟨3, _⟩ => ⟨S512x128, .f32⟩
  | .local _ .vmem, ⟨4, _⟩ => ⟨S512x128, .f32⟩
  | _, _ => ⟨S1024x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x1000_S512x1000_0_0 : ∀ a, (![0, 0] : Fin 2 → Nat) a + S512x1000.size a ≤ S512x1000.size a
  h_S512x1000 : 0 < S512x1000.numel
  inb_S1000x128_S1000x128_0_0 : ∀ a, (![0, 0] : Fin 2 → Nat) a + S1000x128.size a ≤ S1000x128.size a
  h_S1000x128 : 0 < S1000x128.numel
  inb_S512x128_S512x128_0_0 : ∀ a, (![0, 0] : Fin 2 → Nat) a + S512x128.size a ≤ S512x128.size a
  h_S512x128 : 0 < S512x128.numel
  dot_S512x1000_S1000x128_S512x128_1_0_0_1_n_n_wf : DotDims.WF S512x1000 S1000x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S1024x1000.size a
  hwx0_0 : ∀ i : grid0.Coords, EltTy.bits .f32 = 32 ∨ (Rect.block (s := S1024x1000) S512x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S1024x128.size a
  hwx0_2 : ∀ i : grid0.Coords, EltTy.bits .f32 = 32 ∨ (Rect.block (s := S1024x128) S512x128.size (cc0_transform_2 i) (hinb0_2 i)).WholeWords (EltTy.packing .f32)

variable [Facts₀]

def dot_S512x1000_S1000x128_S512x128_1_0_0_1_n_n : DotDims S512x1000 S1000x128 S512x128 where
  lhsContracting := [1]
  rhsContracting := [0]
  lhsNonContracting := [0]
  rhsNonContracting := [1]
  lhsBatch := []
  rhsBatch := []
  wf := dot_S512x1000_S1000x128_S512x128_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x1000 : Shape := ⟨2, ![1024, 1000]⟩
abbrev S1000x128 : Shape := ⟨2, ![1000, 128]⟩
abbrev S1000 : Shape := ⟨1, ![1000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1x1000x128 : Shape := ⟨3, ![1, 1000, 128]⟩
abbrev S1024x1000x1 : Shape := ⟨3, ![1024, 1000, 1]⟩
abbrev S1024x1000x128 : Shape := ⟨3, ![1024, 1000, 128]⟩
abbrev S1024x128 : Shape := ⟨2, ![1024, 128]⟩

abbrev nBuf : Space → Nat
  | .hbm => 33
  | .vmem => 0
  | .smem => 0
  | _ => 0

abbrev bufTy : (tb : Table) → Fin (tcTables nBuf tb) → BufTy
  | .hbm, ⟨0, _⟩ => ⟨S1024x1000, .f32⟩
  | .hbm, ⟨1, _⟩ => ⟨S1000x128, .f32⟩
  | .hbm, ⟨2, _⟩ => ⟨S1000, .i32⟩
  | .hbm, ⟨3, _⟩ => ⟨S_, .i32⟩
  | .hbm, ⟨4, _⟩ => ⟨S1000, .i32⟩
  | .hbm, ⟨5, _⟩ => ⟨S1000, .i1⟩
  | .hbm, ⟨6, _⟩ => ⟨S_, .i32⟩
  | .hbm, ⟨7, _⟩ => ⟨S1000, .i32⟩
  | .hbm, ⟨8, _⟩ => ⟨S1000, .i32⟩
  | .hbm, ⟨9, _⟩ => ⟨S1000, .i32⟩
  | .hbm, ⟨10, _⟩ => ⟨S1000x1, .i32⟩
  | .hbm, ⟨11, _⟩ => ⟨S1, .i32⟩
  | .hbm, ⟨12, _⟩ => ⟨S_, .i32⟩
  | .hbm, ⟨13, _⟩ => ⟨S1000x1, .i32⟩
  | .hbm, ⟨14, _⟩ => ⟨S1000x1, .i1⟩
  | .hbm, ⟨15, _⟩ => ⟨S1x1, .i32⟩
  | .hbm, ⟨16, _⟩ => ⟨S1000x1, .i32⟩
  | .hbm, ⟨17, _⟩ => ⟨S1000x1, .i1⟩
  | .hbm, ⟨18, _⟩ => ⟨S1000x1, .i1⟩
  | .hbm, ⟨19, _⟩ => ⟨S_, .i1⟩
  | .hbm, ⟨20, _⟩ => ⟨S1000, .i1⟩
  | .hbm, ⟨21, _⟩ => ⟨S1000x128, .f32⟩
  | .hbm, ⟨22, _⟩ => ⟨S1000x128, .i1⟩
  | .hbm, ⟨23, _⟩ => ⟨S_, .f32⟩
  | .hbm, ⟨24, _⟩ => ⟨S1000x128, .f32⟩
  | .hbm, ⟨25, _⟩ => ⟨S1000x128, .f32⟩
  | .hbm, ⟨26, _⟩ => ⟨S1x1000x128, .f32⟩
  | .hbm, ⟨27, _⟩ => ⟨S1024x1000x1, .f32⟩
  | .hbm, ⟨28, _⟩ => ⟨S1024x1000x128, .f32⟩
  | .hbm, ⟨29, _⟩ => ⟨S1024x1000x128, .f32⟩
  | .hbm, ⟨30, _⟩ => ⟨S1024x1000x128, .f32⟩
  | .hbm, ⟨31, _⟩ => ⟨S_, .f32⟩
  | .hbm, ⟨32, _⟩ => ⟨S1024x128, .f32⟩
  | _, _ => ⟨S1024x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  reducesTo_S1000x1_S1000_d1 : S1000x1.ReducesTo [1] S1000
  h_S_ : 0 < S_.numel
  bcast_S1000_S1000x128_0 : S1000.BroadcastsInDim S1000x128 (![0] : Fin 1 → Fin S1000x128.rank)
  bcast_S_S1000x128 : S_.BroadcastsInDim S1000x128 (![] : Fin 0 → Fin S1000x128.rank)
  bcast_S1000x128_S1x1000x128_1_2 : S1000x128.BroadcastsInDim S1x1000x128 (![1, 2] : Fin 2 → Fin S1x1000x128.rank)
  bcast_S1024x1000_S1024x1000x1_0_1 : S1024x1000.BroadcastsInDim S1024x1000x1 (![0, 1] : Fin 2 → Fin S1024x1000x1.rank)
  bcast_S1x1000x128_S1024x1000x128_0_1_2 : S1x1000x128.BroadcastsInDim S1024x1000x128 (![0, 1, 2] : Fin 3 → Fin S1024x1000x128.rank)
  bcast_S1024x1000x1_S1024x1000x128_0_1_2 : S1024x1000x1.BroadcastsInDim S1024x1000x128 (![0, 1, 2] : Fin 3 → Fin S1024x1000x128.rank)
  reducesTo_S1024x1000x128_S1024x128_d1 : S1024x1000x128.ReducesTo [1] S1024x128
  gather_S1000x128_S1000x1_S1000x128_1_0_n_n_0_1_1128_wf : GatherDims.WF S1000x128 S1000x1 S1000x128 [1] [0] [] [0] [] 1 ![1, 128]

variable [Facts₀]

def gather_S1000x128_S1000x1_S1000x128_1_0_n_n_0_1_1128 : GatherDims S1000x128 S1000x1 S1000x128 where
  offsetDims := [1]
  collapsedSliceDims := [0]
  operandBatchingDims := []
  startIndicesBatchingDims := []
  startIndexMap := [0]
  indexVectorDim := 1
  sliceSizes := ![1, 128]
  wf := gather_S1000x128_S1000x1_S1000x128_1_0_n_n_0_1_1128_wf

class Facts : Prop extends Facts₀ where

variable [Facts]
-- ==== Proof.KerBody.lean ====
/-
  The kernel body's one stored value at an entry. The body loads its block of 512 weight rows and the whole table and
  stores their matrix product accumulated into zero; read at entry (p, q) of the block over the extended reals that
  is the sum over the 1000 table rows v of x0[p, v] · x1[v, q].
-/
import proofs.«128155_g3934190044074_cont_8to1_b_861_12_alg».proof.Proof.Gen.KernelIdeal.Skeleton
import Idealize.ShloMosaic.PureOps.Ideal.Laws
import Idealize.ShloMosaic.Lib.ValueIdx

noncomputable section

open scoped BigOperators

namespace Cert.KernelIdeal.Body

open Cert.KernelIdeal Cert.KernelIdeal.Gen Idealize.ShloMosaic Idealize.ShloMosaic.ValueIdx

/-- The contraction of the body's product runs over one axis, the table's 1000 rows. -/
abbrev rows : dot_S512x1000_S1000x128_S512x128_1_0_0_1_n_n.contr.Idx ≃ Fin 1000 :=
  contrEquiv1 dot_S512x1000_S1000x128_S512x128_1_0_0_1_n_n 1000 rfl rfl

/-- The product's left operand index at result entry (p, q) and table row v is (p, v). -/
theorem lhs_at (p : Fin 512) (q : Fin 128) (v : Fin 1000) :
    dot_S512x1000_S1000x128_S512x128_1_0_0_1_n_n.lhsIdx (ix2 p q) (rows.symm v) = ix2 p v := by
  funext a
  refine Fin.ext ?_
  match a with
  | ⟨0, _⟩ => rfl
  | ⟨1, _⟩ =>
    exact (DotDims.lhsIdx_val_of_single dot_S512x1000_S1000x128_S512x128_1_0_0_1_n_n (cl := (1 : Fin 2)) rfl (ix2 p q) (rows.symm v)).trans
      (contrEquiv1_symm_val dot_S512x1000_S1000x128_S512x128_1_0_0_1_n_n 1000 rfl rfl v)

/-- … and the right operand index is (v, q). -/
theorem rhs_at (p : Fin 512) (q : Fin 128) (v : Fin 1000) :
    dot_S512x1000_S1000x128_S512x128_1_0_0_1_n_n.rhsIdx (ix2 p q) (rows.symm v) = ix2 v q := by
  funext a
  refine Fin.ext ?_
  match a with
  | ⟨0, _⟩ =>
    exact (DotDims.rhsIdx_val_of_single dot_S512x1000_S1000x128_S512x128_1_0_0_1_n_n (cr := (0 : Fin 2)) rfl (ix2 p q) (rows.symm v)).trans
      (contrEquiv1_symm_val dot_S512x1000_S1000x128_S512x128_1_0_0_1_n_n 1000 rfl rfl v)
  | ⟨1, _⟩ => rfl

/-- THE STORED VALUE AT AN ENTRY: the sum over the table's rows of the weight times the table entry. -/
theorem pay_apply (x0 : FVec Ideal S512x1000 .f32) (x1 : FVec Ideal S1000x128 .f32) (p : Fin 512) (q : Fin 128) :
    k0_pay1 x0 x1 (ix2 p q) = ∑ v : Fin 1000, x0 (ix2 p v) * x1 (ix2 v q) := by
  show FloatOps.matmul dot_S512x1000_S1000x128_S512x128_1_0_0_1_n_n none x0 x1 (constant (F := Ideal) S512x128 .f32 0x00000000#32) (ix2 p q) = _
  refine (Ideal.matmul_constant_zero_apply dot_S512x1000_S1000x128_S512x128_1_0_0_1_n_n none x0 x1 (ix2 p q)).trans ?_
  refine (Equiv.sum_comp rows.symm _).symm.trans ?_
  refine Finset.sum_congr rfl fun v _ => ?_
  rw [lhs_at, rhs_at]

end Cert.KernelIdeal.Body

end
-- ==== Proof.Spec.lean ====
/-
  The function both programs compute, over the extended reals: entry (b, d) of the result is the sum over the 1000
  table rows v of weights[b, v] · table[v, d] — each batch row's weighted sum of the table's rows, a
  [1024, 1000] × [1000, 128] matrix product.
-/
import Idealize.ShloMosaic.PureOps.Ideal
import Idealize.ShloMosaic.Lib.ValueIdx

noncomputable section

open scoped BigOperators

namespace Cert.Pooling

open Idealize.ShloMosaic Idealize.ShloMosaic.ValueIdx

/-- Entry (b, d): the sum over the table's rows of the row's weight times the row's entry. -/
def pooledAt (w : (⟨2, ![1024, 1000]⟩ : Shape).Idx → EReal) (t : (⟨2, ![1000, 128]⟩ : Shape).Idx → EReal)
    (b : Fin 1024) (d : Fin 128) : EReal :=
  ∑ v : Fin 1000, w (ix2 b v) * t (ix2 v d)

/-- The whole result array [1024, 128]. -/
def pooled (w : (⟨2, ![1024, 1000]⟩ : Shape).Idx → EReal) (t : (⟨2, ![1000, 128]⟩ : Shape).Idx → EReal) :
    (⟨2, ![1024, 128]⟩ : Shape).Idx → EReal :=
  fun i => pooledAt w t (i 0) (i 1)

theorem pooled_ix2 (w : (⟨2, ![1024, 1000]⟩ : Shape).Idx → EReal) (t : (⟨2, ![1000, 128]⟩ : Shape).Idx → EReal)
    (b : Fin 1024) (d : Fin 128) : pooled w t (ix2 b d) = pooledAt w t b d := rfl

end Cert.Pooling

end
-- ==== Proof.KerArray.lean ====
/-
  From the blocks to the whole array. The kernel's grid has two points; point t stages rows [512·t, 512·t + 512) of
  the weights and the whole table, and writes back rows [512·t, 512·t + 512) of the result. What point t writes back
  is that block of rows of the weighted sum of the table's rows (`Cert.Pooling.pooled` of the two argument arrays),
  the two blocks of rows cover the result array, so after the run the result array is `pooled` of the arguments.
-/
import proofs.«128155_g3934190044074_cont_8to1_b_861_12_alg».proof.Proof.Gen.KernelIdeal.Value
import proofs.«128155_g3934190044074_cont_8to1_b_861_12_alg».proof.Proof.KerBody
import proofs.«128155_g3934190044074_cont_8to1_b_861_12_alg».proof.Proof.Spec
import Idealize.ShloMosaic.Lib.Pipeline.Value

noncomputable section

open scoped BigOperators

namespace Cert.KernelIdeal.Whole

open Cert.KernelIdeal Cert.KernelIdeal.Gen Cert.KernelIdeal.Value Idealize.ShloMosaic Idealize.ShloMosaic.TcCoe
open Idealize.SL.Sem Idealize.ShloMosaic.ValueIdx Cert.Pooling
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- One entry of a block of the product is the matching entry of the weighted sum, when the loaded block of weights
    holds row `r` of the weights at its row `p` and the loaded table is the table. -/
theorem block_entry (x0 : Vec Ideal S512x1000 .f32) (x1 : Vec Ideal S1000x128 .f32)
    (W : (⟨2, ![1024, 1000]⟩ : Shape).Idx → EReal) (T : (⟨2, ![1000, 128]⟩ : Shape).Idx → EReal)
    (r : Fin 1024) (p : Fin 512) (q : Fin 128)
    (h0 : ∀ v : Fin 1000, x0 (ix2 p v) = W (ix2 r v)) (h1 : ∀ v : Fin 1000, x1 (ix2 v q) = T (ix2 v q)) :
    k0_pay1 x0 x1 (ix2 p q) = pooledAt W T r q := by
  rw [Body.pay_apply]
  unfold pooledAt
  exact Finset.sum_congr rfl fun v _ => by rw [h0 v, h1 v]

/-- The printed index maps over the two grid points: the weights' block is block row `t`, the table's block is the
    whole table, the result's block is block row `t`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the weighted sum of the argument arrays. -/
theorem flushed_eq (c : Dev nD) (t : Fin cfg0.N) :
    (dats m 0 c).flushed 2 t
      = ((cfg0.win 2).blk t).view.read (Elt Ideal) (pooled (V m c main_arg0) (V m c main_arg1)) := by
  rw [Value.flushed2]
  unfold out0_2
  rw [View.canon_unit_zero zero_offsets]
  simp only [View.ld_unit_zero (S := S512x1000) zero_offsets, View.ld_unit_zero (S := S1000x128) zero_offsets]
  obtain ⟨e0, e1, e2, e3, e4, e5⟩ := block_indices t
  have ht : t.val < 2 := t.isLt
  refine funext fun (j : S512x128.Idx) => ?_
  obtain ⟨p, q, rfl⟩ : ∃ (p : Fin 512) (q : Fin 128), j = ix2 p q := ⟨j 0, j 1, eq_ix2 j⟩
  show k0_pay1 (iblk m c 0 t) (iblk m c 1 t) (ix2 p q)
    = pooled (V m c main_arg0) (V m c main_arg1) (((cfg0.win 2).blk t).view.emb (ix2 p q))
  have hp : p.val < 512 := p.isLt
  have eo : ((cfg0.win 2).blk t).view.emb (ix2 p q) = ix2 (⟨t.val * 512 + p.val, by omega⟩ : Fin 1024) q := by
    funext a; apply Fin.ext
    match a with
    | ⟨0, _⟩ => show win0_2.index t (0 : Fin 2) * 512 + 1 * p.val = t.val * 512 + p.val; omega
    | ⟨1, _⟩ => show win0_2.index t (1 : Fin 2) * 128 + 1 * q.val = q.val; omega
  rw [eo, pooled_ix2]
  refine block_entry (iblk m c 0 t) (iblk m c 1 t) (V m c main_arg0) (V m c main_arg1) _ p q ?_ ?_
  · intro v
    show V m c main_arg0 (((cfg0.win 0).blk t).view.emb (ix2 p v)) = V m c main_arg0 (ix2 _ v)
    refine congrArg _ (funext fun a => Fin.ext ?_)
    match a with
    | ⟨0, _⟩ => show win0_0.index t (0 : Fin 2) * 512 + 1 * p.val = t.val * 512 + p.val; omega
    | ⟨1, _⟩ => show win0_0.index t (1 : Fin 2) * 1000 + 1 * v.val = v.val; omega
  · intro v
    show V m c main_arg1 (((cfg0.win 1).blk t).view.emb (ix2 v q)) = V m c main_arg1 (ix2 v q)
    refine congrArg _ (funext fun a => Fin.ext ?_)
    match a with
    | ⟨0, _⟩ => show win0_1.index t (0 : Fin 2) * 1000 + 1 * v.val = v.val; omega
    | ⟨1, _⟩ => show win0_1.index t (1 : Fin 2) * 128 + 1 * q.val = q.val; omega

/-- An index of the result array is in point `t`'s block iff each coordinate is in the block's range on its axis. -/
theorem mem_block (t : Fin cfg0.N) (i : S1024x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v0).slice (win0_2.rect t)).set ↔ _
  rw [View.set_slice_whole, Rect.mem_set_unit]
  exact Iff.rfl

/-- Every index of the result array is in the block of the point that holds its row: row `r` is in block `r / 512`. -/
theorem covered (i : S1024x128.Idx) :
    ∃ t : Fin cfg0.N, (cfg0.win 2).flush t = true ∧ i ∈ ((cfg0.win 2).blk t).view.set := by
  have hi0 : (i 0).val < 1024 := (i 0).isLt
  have hi1 : (i 1).val < 128 := (i 1).isLt
  have hlt : (i 0).val / 512 < cfg0.N := by show (i 0).val / 512 < 2; omega
  obtain ⟨-, -, -, -, e4, e5⟩ := block_indices ⟨(i 0).val / 512, hlt⟩
  refine ⟨⟨(i 0).val / 512, hlt⟩, flush0_2 _, ?_⟩
  rw [mem_block]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    have e4' : win0_2.index ⟨(i 0).val / 512, hlt⟩ (0 : Fin 2) = (i 0).val / 512 := e4
    omega
  | ⟨1, _⟩ =>
    show win0_2.index ⟨(i 0).val / 512, hlt⟩ (1 : Fin 2) * 128 ≤ (i 1).val
      ∧ (i 1).val < win0_2.index ⟨(i 0).val / 512, hlt⟩ (1 : Fin 2) * 128 + 128
    omega

/-- THE RESULT ARRAY after the run is the weighted sum of the table's rows of the argument arrays as launched. -/
theorem final (c : Dev nD) :
    (dats m 0 c).arrAt 2 cfg0.N
      = pooled (m ((c : Thread nD τ).loc main_arg0)) (m ((c : Thread nD τ).loc main_arg1)) :=
  (dats m 0 c).arrAt_eq_of_cover 2 (pooled (V m c main_arg0) (V m c main_arg1)) (fun t _ => flushed_eq m c t) covered

/-- The kernel's run: the result buffer ends at the weighted sum, the arguments unchanged. -/
theorem run : θ_run defs (onTc (τ := τ) (main (F := Ideal))) ⟨m, fun _ => 0, ρ⟩ fun r => ∀ c : Dev nD,
      r.2.mem ((c : Thread nD τ).loc main_v0)
          = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRun.lean ====
/-
  The reference program as a straight line. Its @main builds the positions 0 … 999 (an iota), looks the table's rows
  up at those positions (jnp.take: wrap a negative position, gather the row at the clamped position, and keep the row
  only where the position was in range, a NaN otherwise), lays the looked-up table [1000, 128] and the weights
  [1024, 1000] out over [1024, 1000, 128], multiplies them element by element and sums over the middle axis.
  Here: the thirty-one operations in order (the two outlined functions unfolded at their calls), the term they
  compose at the result buffer (`out`), and the run — every weakly fair execution terminates with the result buffer
  at `out` of the two argument arrays as launched, the arguments unchanged.
-/
import proofs.«128155_g3934190044074_cont_8to1_b_861_12_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The looked-up positions (integers only) -/

/-- The positions 0 … 999 as 32-bit words. -/
def pos : IVec S1000 32 := iotaInDim S1000 32 0

/-- A negative position counts from the end: `pos + 1000` where `pos < 0`, else `pos`. -/
def wrapped : IVec S1000 32 :=
  select (cmpi .slt pos (broadcastInDim S1000 ![] bcast_S_S1000 (constantI S_ 32 0#32)))
    (addi pos (broadcastInDim S1000 ![] bcast_S_S1000 (constantI S_ 32 1000#32))) pos

/-- The start indices of the gather: one per row, as a column. -/
def starts : IVec S1000x1 32 := broadcastInDim S1000x1 ![0] bcast_S1000_S1000x1_0 wrapped

/-- Whether a row's start index lies in `[0, 999]`. -/
def inRange : IVec S1000 1 :=
  Host.reduce IntOp.andi
    (andi (cmpi .sge starts (broadcastInDim S1000x1 ![] bcast_S_S1000x1 (constantI S_ 32 0#32)))
      (cmpi .sle starts (broadcastInDim S1000x1 ![0, 1] bcast_S1x1_S1000x1_0_1
        (broadcastInDim S1x1 ![1] bcast_S1_S1x1_1 (constantI S1 32 999#32)))))
    (constantI S_ 1 1#1) reducesTo_S1000x1_S1000_d1 h_S_

/-! ## The float part -/

/-- The table's rows at the start indices, a NaN row where the index was out of range. -/
def taken (t : FVec F S1000x128 .f32) : FVec F S1000x128 .f32 :=
  select (broadcastInDim S1000x128 ![0] bcast_S1000_S1000x128_0 inRange)
    (Host.gather gather_S1000x128_S1000x1_S1000x128_1_0_n_n_0_1_1128 t starts)
    (broadcastInDim S1000x128 ![] bcast_S_S1000x128 (constant S_ .f32 0x7FC00000#32))

/-- The products `taken t [v, d] · w [b, v]` over [1024, 1000, 128]. -/
def products (w : FVec F S1024x1000 .f32) (t : FVec F S1000x128 .f32) : FVec F S1024x1000x128 .f32 :=
  mulf
    (broadcastInDim S1024x1000x128 ![0, 1, 2] bcast_S1x1000x128_S1024x1000x128_0_1_2
      (broadcastInDim S1x1000x128 ![1, 2] bcast_S1000x128_S1x1000x128_1_2 (taken t)))
    (broadcastInDim S1024x1000x128 ![0, 1, 2] bcast_S1024x1000x1_S1024x1000x128_0_1_2
      (broadcastInDim S1024x1000x1 ![0, 1] bcast_S1024x1000_S1024x1000x1_0_1 w))

/-- The result: the products summed over the middle axis, from zero. -/
def out (w : FVec F S1024x1000 .f32) (t : FVec F S1000x128 .f32) : FVec F S1024x128 .f32 :=
  Host.reduceAdd (products w t) (constant S_ .f32 0x00000000#32) reducesTo_S1024x1000x128_S1024x128_d1 h_S_

/-! ## The operations in order -/

/-- @main's operations, the calls of `_take` and `_where` unfolded into the calls' own buffers. -/
abbrev ops : List (HloOp τ sig (Elt F)) :=
  [ nullary main_v0 (iotaInDim S1000 32 0),
    TRef.nullary main_call0.c (constantI S_ 32 0#32),
    TRef.unary main_call0.c main_call0.v0 (broadcastInDim S1000 ![] bcast_S_S1000),
    TRef.binary (.of main_v0) main_call0.v0 main_call0.v1 (cmpi .slt),
    TRef.nullary main_call0.c_0 (constantI S_ 32 1000#32),
    TRef.unary main_call0.c_0 main_call0.v2 (broadcastInDim S1000 ![] bcast_S_S1000),
    TRef.binary (.of main_v0) main_call0.v2 main_call0.v3 addi,
    TRef.ternary main_call0.v1 main_call0.v3 (.of main_v0) main_call0.call0.v0 select,
    TRef.unary main_call0.call0.v0 main_call0.v5 (broadcastInDim S1000x1 ![0] bcast_S1000_S1000x1_0),
    TRef.nullary main_call0.c_1 (constantI S1 32 999#32),
    TRef.nullary main_call0.c_2 (constantI S_ 32 0#32),
    TRef.unary main_call0.c_2 main_call0.v6 (broadcastInDim S1000x1 ![] bcast_S_S1000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000x1 ![0, 1] bcast_S1x1_S1000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000x1_S1000_d1 h_S_),
    TRef.binary (.of main_arg1) main_call0.v5 main_call0.v13 (fun x i => Host.gather gather_S1000x128_S1000x1_S1000x128_1_0_n_n_0_1_1128 x i),
    TRef.unary main_call0.v12 main_call0.v14 (broadcastInDim S1000x128 ![0] bcast_S1000_S1000x128_0),
    TRef.nullary main_call0.cst (constant S_ .f32 0x7FC00000#32),
    TRef.unary main_call0.cst main_call0.v15 (broadcastInDim S1000x128 ![] bcast_S_S1000x128),
    TRef.ternary main_call0.v14 main_call0.v13 main_call0.v15 main_call0.v16 select,
    unary main_v1 main_v2 (broadcastInDim S1x1000x128 ![1, 2] bcast_S1000x128_S1x1000x128_1_2 : (⟨S1000x128, .f32⟩ : BufTy).Contents (Elt F) → (⟨S1x1000x128, .f32⟩ : BufTy).Contents (Elt F)),
    unary main_arg0 main_v3 (broadcastInDim S1024x1000x1 ![0, 1] bcast_S1024x1000_S1024x1000x1_0_1 : (⟨S1024x1000, .f32⟩ : BufTy).Contents (Elt F) → (⟨S1024x1000x1, .f32⟩ : BufTy).Contents (Elt F)),
    unary main_v2 main_v4 (broadcastInDim S1024x1000x128 ![0, 1, 2] bcast_S1x1000x128_S1024x1000x128_0_1_2 : (⟨S1x1000x128, .f32⟩ : BufTy).Contents (Elt F) → (⟨S1024x1000x128, .f32⟩ : BufTy).Contents (Elt F)),
    unary main_v3 main_v5 (broadcastInDim S1024x1000x128 ![0, 1, 2] bcast_S1024x1000x1_S1024x1000x128_0_1_2 : (⟨S1024x1000x1, .f32⟩ : BufTy).Contents (Elt F) → (⟨S1024x1000x128, .f32⟩ : BufTy).Contents (Elt F)),
    binary main_v4 main_v5 main_v6 (mulf : (⟨S1024x1000x128, .f32⟩ : BufTy).Contents (Elt F) → (⟨S1024x1000x128, .f32⟩ : BufTy).Contents (Elt F) → (⟨S1024x1000x128, .f32⟩ : BufTy).Contents (Elt F)),
    nullary main_cst (constant S_ .f32 0x00000000#32),
    binary main_v6 main_cst main_v7 ((fun x v => Host.reduceAdd x v reducesTo_S1024x1000x128_S1024x128_d1 h_S_) : (⟨S1024x1000x128, .f32⟩ : BufTy).Contents (Elt F) → (⟨S_, .f32⟩ : BufTy).Contents (Elt F) → (⟨S1024x128, .f32⟩ : BufTy).Contents (Elt F)) ]

set_option maxRecDepth 1024 in
/-- @main is that straight line: the two functions unfolded at their calls, sequencing re-associated. -/
theorem main_eq (c : Dev nD) : main (F := F) c = seq ops := by
  simp only [main, fn_take.body, fn_where.body, seq, bind_assoc, pure_bind]

/-- What the line leaves in the result buffer is `out` of the two argument arrays: each operation's result read at
    its own buffer, every other buffer as it was. -/
theorem out_eq (V : Valuation τ sig (Elt F)) :
    after ops V (main_v7 : DevRef τ sig) = out (V (main_arg0 : DevRef τ sig)) (V (main_arg1 : DevRef τ sig)) := by
  unfold out products taken inRange starts wrapped pos
  after_results_simp
  simp only [TRef.toBuf, TRef.ofBuf, cast_eq]

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., unary_bufs_sub .., unary_bufs_sub .., binary_bufs_sub .., nullary_bufs_sub ..,
    binary_bufs_sub ..⟩

/-- On every device, from any memory with zero counters: every weakly fair execution of the reference terminates with
    the result buffer at `out` of the argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v7).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.Line

end
-- ==== Proof.RefValue.lean ====
/-
  The reference's result read at an entry. The positions it looks the table up at are 0 … 999 in order: none is
  negative, so none is wrapped; each lies in [0, 999], so each passes the range test and is its own clamped
  position; the looked-up table is therefore the table itself, row for row, and the NaN fill is never selected.
  The products laid out over [1024, 1000, 128] are table[v, d] · weights[b, v] at (b, v, d), and their sum over the
  middle axis from zero is the weighted sum of the table's rows (`Cert.Pooling.pooled`), the two factors of each
  product commuted.
-/
import proofs.«128155_g3934190044074_cont_8to1_b_861_12_alg».proof.Proof.RefRun
import proofs.«128155_g3934190044074_cont_8to1_b_861_12_alg».proof.Proof.Spec
import Idealize.ShloMosaic.Lib.IdealHost
import Idealize.ShloMosaic.Lib.Pipeline.Value
import Idealize.ShloMosaic.Lib.Affine
import Idealize.ShloMosaic.PureOps.Reduce

noncomputable section

open scoped BigOperators

namespace Cert.ReferenceIdeal.Read

open Cert.ReferenceIdeal Cert.ReferenceIdeal.Gen Cert.ReferenceIdeal.Line Idealize.ShloMosaic Idealize.ShloMosaic.ValueIdx
open Cert.Pooling

/-! ## The positions -/

/-- A position below 1000, as a 32-bit word read signed, is itself. -/
theorem toInt_word (n : Nat) (h : n < 1000) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- No position is negative, so none is wrapped. -/
theorem wrapped_apply (v : Fin 1000) : wrapped (ix1 v) = BitVec.ofNat 32 v.val := by
  show Scalar.select (IntOp.cmpi .slt (BitVec.ofNat 32 v.val) 0#32) (IntOp.addi (BitVec.ofNat 32 v.val) 1000#32)
    (BitVec.ofNat 32 v.val) = _
  have hneg : IntOp.cmpi .slt (BitVec.ofNat 32 v.val) 0#32 = 0#1 := by
    refine eq_zero_of_ne_one fun h => ?_
    rw [IntOp.cmpi_slt, toInt_word v.val v.isLt] at h
    have h0 : (0#32 : BitVec 32).toInt = 0 := by decide
    rw [h0] at h
    omega
  rw [hneg, select_zero]

/-- Row `v`'s start index is `v`. -/
theorem starts_apply (v : Fin 1000) : starts (ix2 v (0 : Fin 1)) = BitVec.ofNat 32 v.val := by
  unfold starts
  refine (broadcastInDim_apply _ bcast_S1000_S1000x1_0 wrapped (ix2 v (0 : Fin 1)) (ix1 v) ?_).trans (wrapped_apply v)
  intro a
  match a with
  | ⟨0, _⟩ => rfl

/-- A fold over the one coordinate of a unit axis is one application. -/
theorem fold_unit (f : Fin 1 → BitVec 1) (b : BitVec 1) :
    (Finset.univ : Finset (Fin 1)).fold IntOp.andi b f = IntOp.andi (f 0) b := by
  rw [Finset.univ_unique, Finset.fold_singleton]
  rfl

theorem red_col : S1000x1.Reduces [1] S1000 := by decide

/-- Every row's start index is in range. -/
theorem inRange_apply (v : Fin 1000) : inRange (ix1 v) = 1#1 := by
  unfold inRange
  rw [Host.reduce_eq_fold_single IntOp.andi _ _ reducesTo_S1000x1_S1000_d1 red_col h_S_ (ix1 v)]
  refine (fold_unit _ _).trans ?_
  rw [IntOp.andi_eq_one]
  refine ⟨?_, rfl⟩
  have hl : red_col.lift (ix1 v) (0 : Fin 1) = ix2 v (0 : Fin 1) := by
    funext a
    refine Fin.ext ?_
    match a with
    | ⟨0, _⟩ => rfl
    | ⟨1, _⟩ => rfl
  show IntOp.andi (IntOp.cmpi .sge (starts (red_col.lift (ix1 v) (0 : Fin 1))) 0#32)
    (IntOp.cmpi .sle (starts (red_col.lift (ix1 v) (0 : Fin 1))) 999#32) = 1#1
  rw [hl, starts_apply, IntOp.andi_eq_one, IntOp.cmpi_sge, IntOp.cmpi_sle, toInt_word v.val v.isLt]
  have h0 : (0#32 : BitVec 32).toInt = 0 := by decide
  have h9 : (999#32 : BitVec 32).toInt = 999 := by decide
  have hv := v.isLt
  rw [h0, h9]
  constructor <;> omega

/-! ## The looked-up table is the table -/

/-- The start-indices index the gather reads for result entry (v, d) is (v, 0). -/
theorem gather_si (v : Fin 1000) (d : Fin 128)
    (c : Fin gather_S1000x128_S1000x1_S1000x128_1_0_n_n_0_1_1128.startIndexMap.length) :
    gather_S1000x128_S1000x1_S1000x128_1_0_n_n_0_1_1128.siIdx (ix2 v d) c = ix2 v (0 : Fin 1) := by
  have hc : c.val = 0 := by
    have h1 : gather_S1000x128_S1000x1_S1000x128_1_0_n_n_0_1_1128.startIndexMap.length = 1 := rfl
    have := c.isLt
    omega
  funext b
  refine Fin.ext ?_
  match b with
  | ⟨0, _⟩ => rfl
  | ⟨1, _⟩ => exact hc

/-- On the row axis the gather's operand coordinate for result entry (v, d) is the clamped start index, `v`. -/
theorem gather_row (v : Fin 1000) (d : Fin 128) :
    gather_S1000x128_S1000x1_S1000x128_1_0_n_n_0_1_1128.start (ix2 v d) starts (0 : Fin 2)
      + gather_S1000x128_S1000x1_S1000x128_1_0_n_n_0_1_1128.batchCoord (ix2 v d) (0 : Fin 2)
      + gather_S1000x128_S1000x1_S1000x128_1_0_n_n_0_1_1128.offCoord (ix2 v d) (0 : Fin 2) = v.val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S1000x128_S1000x1_S1000x128_1_0_n_n_0_1_1128.startIndexMap from
    List.mem_singleton.mpr rfl), gather_si, starts_apply, toInt_word v.val v.isLt]
  have hv := v.isLt
  show min ((v.val : Int).toNat) (1000 - 1) = v.val
  rw [Int.toNat_natCast]
  omega

/-- On the column axis it is the result's column: no start index, the offset coordinate `d`. -/
theorem gather_col (v : Fin 1000) (d : Fin 128) :
    gather_S1000x128_S1000x1_S1000x128_1_0_n_n_0_1_1128.start (ix2 v d) starts (1 : Fin 2)
      + gather_S1000x128_S1000x1_S1000x128_1_0_n_n_0_1_1128.batchCoord (ix2 v d) (1 : Fin 2)
      + gather_S1000x128_S1000x1_S1000x128_1_0_n_n_0_1_1128.offCoord (ix2 v d) (1 : Fin 2) = d.val := by
  rw [GatherDims.batchCoord_eq_zero _ _ _ List.not_mem_nil]
  have hs : gather_S1000x128_S1000x1_S1000x128_1_0_n_n_0_1_1128.start (ix2 v d) starts (1 : Fin 2) = 0 := by
    unfold GatherDims.start
    exact dif_neg (by decide)
  have hk : (1 : Fin 2) ∈ gather_S1000x128_S1000x1_S1000x128_1_0_n_n_0_1_1128.sKept :=
    (GatherDims.mem_sKept _ _).mpr ⟨by decide, List.not_mem_nil⟩
  have ho : gather_S1000x128_S1000x1_S1000x128_1_0_n_n_0_1_1128.offCoord (ix2 v d) (1 : Fin 2) = d.val := by
    unfold GatherDims.offCoord
    rw [dif_pos hk]
    have hidx : List.idxOf (1 : Fin 2) gather_S1000x128_S1000x1_S1000x128_1_0_n_n_0_1_1128.sKept = 0 := by decide
    have e : ∀ (n : Nat) (hn : n < gather_S1000x128_S1000x1_S1000x128_1_0_n_n_0_1_1128.offsetDims.length), n = 0 →
        (ix2 v d (gather_S1000x128_S1000x1_S1000x128_1_0_n_n_0_1_1128.offsetDims[n]'hn)).val = d.val := by
      intro n hn h0
      subst h0
      rfl
    exact e _ _ hidx
  rw [hs, ho]
  omega

/-- The gather reads row `v` of its operand at result row `v`: the start index `v`, clamped into [0, 999], is `v`,
    and the column is the result's column. -/
theorem gather_apply {α : Type} (t : S1000x128.Idx → α) (v : Fin 1000) (d : Fin 128) :
    Host.gather gather_S1000x128_S1000x1_S1000x128_1_0_n_n_0_1_1128 t starts (ix2 v d) = t (ix2 v d) := by
  unfold Host.gather
  refine congrArg t (funext fun a => Fin.ext ?_)
  match a with
  | ⟨0, _⟩ => exact gather_row v d
  | ⟨1, _⟩ => exact gather_col v d

/-- The looked-up table at (v, d) is the table at (v, d). -/
theorem taken_apply (t : FVec Ideal S1000x128 .f32) (v : Fin 1000) (d : Fin 128) : taken t (ix2 v d) = t (ix2 v d) := by
  unfold taken
  rw [select_apply]
  have hm : broadcastInDim S1000x128 ![0] bcast_S1000_S1000x128_0 inRange (ix2 v d) = 1#1 := by
    refine (broadcastInDim_apply _ bcast_S1000_S1000x128_0 inRange (ix2 v d) (ix1 v) ?_).trans (inRange_apply v)
    intro a
    match a with
    | ⟨0, _⟩ => rfl
  rw [hm, select_one, gather_apply]

/-! ## The products and their sum -/

/-- The product at (b, v, d): the looked-up table's entry (v, d) times the weight (b, v). -/
theorem products_apply (w : FVec Ideal S1024x1000 .f32) (t : FVec Ideal S1000x128 .f32) (b : Fin 1024) (v : Fin 1000)
    (d : Fin 128) : products w t (ix3 b v d) = taken t (ix2 v d) * w (ix2 b v) := by
  unfold products
  rw [mulf_apply]
  have hl : broadcastInDim S1024x1000x128 ![0, 1, 2] bcast_S1x1000x128_S1024x1000x128_0_1_2
      (broadcastInDim S1x1000x128 ![1, 2] bcast_S1000x128_S1x1000x128_1_2 (taken t)) (ix3 b v d) = taken t (ix2 v d) := by
    refine (broadcastInDim_apply _ bcast_S1x1000x128_S1024x1000x128_0_1_2 _ (ix3 b v d) (ix3 (0 : Fin 1) v d) ?_).trans ?_
    · intro a
      match a with
      | ⟨0, _⟩ => rfl
      | ⟨1, _⟩ => rfl
      | ⟨2, _⟩ => rfl
    · refine broadcastInDim_apply _ bcast_S1000x128_S1x1000x128_1_2 (taken t) (ix3 (0 : Fin 1) v d) (ix2 v d) ?_
      intro a
      match a with
      | ⟨0, _⟩ => rfl
      | ⟨1, _⟩ => rfl
  have hr : broadcastInDim S1024x1000x128 ![0, 1, 2] bcast_S1024x1000x1_S1024x1000x128_0_1_2
      (broadcastInDim S1024x1000x1 ![0, 1] bcast_S1024x1000_S1024x1000x1_0_1 w) (ix3 b v d) = w (ix2 b v) := by
    refine (broadcastInDim_apply _ bcast_S1024x1000x1_S1024x1000x128_0_1_2 _ (ix3 b v d) (ix3 b v (0 : Fin 1)) ?_).trans ?_
    · intro a
      match a with
      | ⟨0, _⟩ => rfl
      | ⟨1, _⟩ => rfl
      | ⟨2, _⟩ => rfl
    · refine broadcastInDim_apply _ bcast_S1024x1000_S1024x1000x1_0_1 w (ix3 b v (0 : Fin 1)) (ix2 b v) ?_
      intro a
      match a with
      | ⟨0, _⟩ => rfl
      | ⟨1, _⟩ => rfl
  rw [hl, hr]

theorem red_mid : S1024x1000x128.Reduces [1] S1024x128 := by decide

/-- THE REFERENCE'S RESULT AT (b, d) is the weighted sum of the table's rows there. -/
theorem out_apply (w : FVec Ideal S1024x1000 .f32) (t : FVec Ideal S1000x128 .f32) (b : Fin 1024) (d : Fin 128) :
    out w t (ix2 b d) = pooledAt w t b d := by
  show Ideal.hostReduceAdd reducesTo_S1024x1000x128_S1024x128_d1 (products w t)
    (constant (F := Ideal) S_ .f32 0x00000000#32 (Shape.Idx.first h_S_)) (ix2 b d) = _
  refine (Ideal.hostReduceAdd_single reducesTo_S1024x1000x128_S1024x128_d1 red_mid (products w t) _ (ix2 b d)).trans ?_
  have hl : ∀ k : Fin 1000, red_mid.lift (ix2 b d) k = ix3 b k d := fun k => funext fun a => Fin.ext (by
    match a with
    | ⟨0, _⟩ => rfl
    | ⟨1, _⟩ => rfl
    | ⟨2, _⟩ => rfl)
  show Ideal.ofBits .f32 0x00000000#32 + ∑ k : Fin 1000, products w t (red_mid.lift (ix2 b d) k) = _
  rw [Ideal.ofBits_zero_f32, zero_add]
  unfold pooledAt
  refine Finset.sum_congr rfl fun v _ => ?_
  rw [hl v, products_apply, taken_apply, mul_comm]

/-- The reference's result array is the weighted sum of the table's rows. -/
theorem out_eq (w : FVec Ideal S1024x1000 .f32) (t : FVec Ideal S1000x128 .f32) : out w t = pooled w t := by
  funext i
  obtain ⟨b, d, rfl⟩ : ∃ (b : Fin 1024) (d : Fin 128), i = ix2 b d := ⟨i 0, i 1, eq_ix2 i⟩
  rw [out_apply, pooled_ix2]

end Cert.ReferenceIdeal.Read

end
-- ==== Proof.lean ====
/-
  The certificate's five claims for the weighted sum of an embedding table's rows.
  Both idealized programs compute, over the extended reals, entry (b, d) = Σ_v weights[b, v] · table[v, d]
  (`Cert.Pooling.pooled`). The kernel does so as a [512, 1000] × [1000, 128] matrix product per grid point, two
  points covering the 1024 batch rows (Proof/KerBody.lean: one entry of a block's product as that sum;
  Proof/KerArray.lean: the blocks are the rows of `pooled`, and they cover the result). The reference looks the table up at
  the positions 0 … 999 — which is the table itself —, multiplies table[v, d] · weights[b, v] over [1024, 1000, 128]
  and sums over v from zero (Proof/RefRun.lean: its run as a straight line; Proof/RefValue.lean: that term at an
  entry). The two sums differ only in the order of each product's factors, and multiplication of extended reals
  commutes: no finiteness is used. The idealization rewrote nothing, so `preserves` is trivial. The three frames: the
  kernel's at both instances are the generated frame runs, the reference's is its run with the result dropped.
-/
import proofs.«128155_g3934190044074_cont_8to1_b_861_12_alg».proof.Defs
import proofs.«128155_g3934190044074_cont_8to1_b_861_12_alg».proof.Proof.Gen.Kernel
import proofs.«128155_g3934190044074_cont_8to1_b_861_12_alg».proof.Proof.Gen.Kernel.Frame
import proofs.«128155_g3934190044074_cont_8to1_b_861_12_alg».proof.Proof.Gen.KernelIdeal
import proofs.«128155_g3934190044074_cont_8to1_b_861_12_alg».proof.Proof.Gen.KernelIdeal.Frame
import proofs.«128155_g3934190044074_cont_8to1_b_861_12_alg».proof.Proof.Gen.KernelIdeal.Value
import proofs.«128155_g3934190044074_cont_8to1_b_861_12_alg».proof.Proof.Gen.ReferenceIdeal
import proofs.«128155_g3934190044074_cont_8to1_b_861_12_alg».proof.Proof.Gen.Pre_finite_inputs
import proofs.«128155_g3934190044074_cont_8to1_b_861_12_alg».proof.Proof.KerArray
import proofs.«128155_g3934190044074_cont_8to1_b_861_12_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Line.run (F := Ideal) m ρ)

/-- The idealization rewrote no operation. -/
theorem preserves : Cert.preserves_Kernel_KernelIdeal := trivial

/-- From memories agreeing on the arguments both runs end with the result buffer at the weighted sum of the table's
    rows of the same two arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Line.run (F := Ideal) m' ρ')
  rw [(hagree c).1, (hagree c).2]
  exact Cert.ReferenceIdeal.Read.out_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
